-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S128x1024 : Shape := ⟨2, ![128, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S65536x1024 .f32) (main_arg1 : FVec F S128x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  main_v8
-- ==== Kernel.lean ====
abbrev S65536x1024 : Shape := ⟨2, ![65536, 1024]⟩
abbrev S128x1024 : Shape := ⟨2, ![128, 1024]⟩
abbrev S1x1024 : Shape := ⟨2, ![1, 1024]⟩
abbrev S4096x512 : Shape := ⟨2, ![4096, 512]⟩
abbrev S1x512 : Shape := ⟨2, ![1, 512]⟩
abbrev S512 : Shape := ⟨1, ![512]⟩
abbrev S128 : Shape := ⟨1, ![128]⟩
abbrev S128x1 : Shape := ⟨2, ![128, 1]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S128x1024, .f32⟩
  | .hbm, ⟨2, _⟩ => ⟨S1x1024, .f32⟩
  | .hbm, ⟨3, _⟩ => ⟨S128x1024, .f32⟩
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S1x512, .f32⟩
  | .local _ .vmem, ⟨4, _⟩ => ⟨S128x1024, .f32⟩
  | .local _ .vmem, ⟨5, _⟩ => ⟨S1x1024, .f32⟩
  | .local _ .vmem, ⟨6, _⟩ => ⟨S128x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S4096x512_S4096x512_0_0 : ∀ a, (![0, 0] : Fin 2 → Nat) a + S4096x512.size a ≤ S4096x512.size a
  h_S4096x512 : 0 < S4096x512.numel
  reduces_S4096x512_S512 : S4096x512.Reduces [0] S512
  shapeCasts_S512_S1x512 : S512.ShapeCasts S1x512
  inb_S128x1024_S128x1024_0_0 : ∀ a, (![0, 0] : Fin 2 → Nat) a + S128x1024.size a ≤ S128x1024.size a
  h_S128x1024 : 0 < S128x1024.numel
  reduces_S128x1024_S128 : S128x1024.Reduces [1] S128
  shapeCasts_S128_S128x1 : S128.ShapeCasts S128x1
  reduces_S128x1024_S1024 : S128x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S128x1_S128x1024 : S128x1.Broadcasts S128x1024
  broadcasts_S1x1024_S128x1024 : S1x1024.Broadcasts S128x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x1024.size a
  hwx0_0 : ∀ i : grid0.Coords, EltTy.bits .f32 = 32 ∨ (Rect.block (s := S65536x1024) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x1024.size a
  hwx0_1 : ∀ i : grid0.Coords, EltTy.bits .f32 = 32 ∨ (Rect.block (s := S1x1024) S1x512.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S128x1024.size a
  hwx1_0 : ∀ i : grid1.Coords, EltTy.bits .f32 = 32 ∨ (Rect.block (s := S128x1024) S128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S128x1024.size a
  hwx1_2 : ∀ i : grid1.Coords, EltTy.bits .f32 = 32 ∨ (Rect.block (s := S128x1024) S128x1024.size (cc1_transform_2 i) (hinb1_2 i)).WholeWords (EltTy.packing .f32)

variable [Facts₀]

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S128x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x1024 : Shape := ⟨2, ![65536, 1024]⟩
abbrev S128x1024 : Shape := ⟨2, ![128, 1024]⟩
abbrev S_ : Shape := ⟨0, ![]⟩
abbrev S128 : Shape := ⟨1, ![128]⟩
abbrev S1024 : Shape := ⟨1, ![1024]⟩
abbrev S128x1 : Shape := ⟨2, ![128, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S128x1024, .f32⟩
  | .hbm, ⟨2, _⟩ => ⟨S_, .f32⟩
  | .hbm, ⟨3, _⟩ => ⟨S128, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S128x1, .f32⟩
  | .hbm, ⟨9, _⟩ => ⟨S1x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128, .f32⟩
  | .hbm, ⟨16, _⟩ => ⟨S128x1, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S128x1, .f32⟩
  | .hbm, ⟨23, _⟩ => ⟨S128x1024, .f32⟩
  | .hbm, ⟨24, _⟩ => ⟨S128x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  reducesTo_S128x1024_S128_d1 : S128x1024.ReducesTo [1] S128
  h_S_ : 0 < S_.numel
  reducesTo_S128x1024_S1024_d0 : S128x1024.ReducesTo [0] S1024
  reducesTo_S65536x1024_S1024_d0 : S65536x1024.ReducesTo [0] S1024
  bcast_S128_S128x1_0 : S128.BroadcastsInDim S128x1 (![0] : Fin 1 → Fin S128x1.rank)
  bcast_S1024_S1x1024_1 : S1024.BroadcastsInDim S1x1024 (![1] : Fin 1 → Fin S1x1024.rank)
  bcast_S128x1_S128x1024_0_1 : S128x1.BroadcastsInDim S128x1024 (![0, 1] : Fin 2 → Fin S128x1024.rank)
  bcast_S1x1024_S128x1024_0_1 : S1x1024.BroadcastsInDim S128x1024 (![0, 1] : Fin 2 → Fin S128x1024.rank)

variable [Facts₀]

class Facts : Prop extends Facts₀ where

variable [Facts]
-- ==== Proof.KernelRun.lean ====
/-
  The run of the idealized kernel's @main with its result array named: the two kernel calls run one after the other,
  the second reading what the first wrote, and the final state holds the result buffer at what the second call's
  write-back leaves, the two arguments as launched.
-/
import proofs.«103529_j85401129713725_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    second call's write-back leaves (the fold of the two calls' write-backs from the launch memory) and both
    arguments as launched. -/
theorem run_named : θ_run defs (onTc (τ := τ) (main (F := F))) ⟨m, fun _ => 0, ρ⟩ (fun r => ∀ c : Dev nD,
      r.2.mem ((c.tc : Thread nD τ).loc main_v1) = V2 m ρ c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c)⟩)

end Cert.KernelIdeal.Whole

end
-- ==== Proof.Spec.lean ====
/-
  The function both programs compute, entry by entry over the extended reals.

  With s_i the sum of row i of the weights, t_j the sum of column j of the weights and c_k the sum of column k of
  the samples, entry (i, j) of the result is  exp (s_i * t_j) / sum over k of exp (s_i * c_k).
  The three sums are plain finite sums in the extended reals (an additive commutative monoid: no finiteness is needed to
  regroup them), the quotient and the exponential are the ideal ones.
-/
import Idealize.ShloMosaic.PureOps.Ideal
import Idealize.ShloMosaic.Lib.ValueIdx

noncomputable section

namespace Cert.Remap

open Idealize.ShloMosaic Idealize.ShloMosaic.ValueIdx

/-- The sum of column `k` of the samples `x` (65536 rows). -/
def colSumX (x : (⟨2, ![65536, 1024]⟩ : Shape).Idx → EReal) (k : Fin 1024) : EReal :=
  ∑ n : Fin 65536, x (ix2 n k)

/-- The sum of row `i` of the weights `w`. -/
def rowSumW (w : (⟨2, ![128, 1024]⟩ : Shape).Idx → EReal) (i : Fin 128) : EReal :=
  ∑ k : Fin 1024, w (ix2 i k)

/-- The sum of column `j` of the weights `w`. -/
def colSumW (w : (⟨2, ![128, 1024]⟩ : Shape).Idx → EReal) (j : Fin 1024) : EReal :=
  ∑ i : Fin 128, w (ix2 i j)

/-- The result from the three vectors of sums: `exp (s i * t j) / ∑ k, exp (s i * c k)` at `(i, j)`. -/
def remapOf (s : Fin 128 → EReal) (t c : Fin 1024 → EReal) : (⟨2, ![128, 1024]⟩ : Shape).Idx → EReal :=
  fun idx => Ideal.div (Ideal.exp (s (idx 0) * t (idx 1))) (∑ k : Fin 1024, Ideal.exp (s (idx 0) * c k))

/-- The result as one function of the two argument arrays. -/
def G (x : (⟨2, ![65536, 1024]⟩ : Shape).Idx → EReal) (w : (⟨2, ![128, 1024]⟩ : Shape).Idx → EReal) :
    (⟨2, ![128, 1024]⟩ : Shape).Idx → EReal :=
  remapOf (rowSumW w) (colSumW w) (colSumX x)

theorem remapOf_apply (s : Fin 128 → EReal) (t c : Fin 1024 → EReal) (p : Fin 128) (q : Fin 1024) :
    remapOf s t c (ix2 p q) = Ideal.div (Ideal.exp (s p * t q)) (∑ k : Fin 1024, Ideal.exp (s p * c k)) := rfl

end Cert.Remap

end
-- ==== Proof.LibColSum.lean ====
/-
  A matrix summed down its columns, and a column's sum taken tile by tile.

  The reduction of a matrix of extended reals over its FIRST axis read at a column; a matrix read at natural-number
  coordinates (zero outside its extents), through which a column's sum is a sum over a range of row numbers; and the sum over
  the first `R * (i + 1)` row numbers split into the first `R * i` and the next `R`. All extents are variables.
-/
import Idealize.ShloMosaic.Lib.Pipeline.Value
import Idealize.ShloMosaic.Lib.ValueIdx
import Idealize.ShloMosaic.PureOps.Ideal.Laws

namespace Cert.LibColSum

open Idealize.ShloMosaic Idealize.ShloMosaic.ValueIdx

/-- The sum over the first axis of a matrix of extended reals, read at column `c`: the column's sum. The accumulator's
    word and its proof are spelt as a kernel body spells them (the zero word). -/
theorem sum_cols_apply {a b : ℕ} (src : FVec Ideal ⟨2, ![a, b]⟩ .f32)
    (h : (⟨2, ![a, b]⟩ : Shape).Reduces [0] ⟨1, ![b]⟩) (hφ : FKind.Formats FTy.f32)
    (hacc : (0x00000000#32 : BitVec 32) = 0x00000000#32) (c : Fin b) :
    multiReduction .add [0] ⟨1, ![b]⟩ src 0x00000000#32 h hφ hacc (ix1 c) = ∑ r : Fin a, src (ix2 r c) := by
  refine (Ideal.multiReduction_add_single src 0x00000000#32 h hφ hacc (ix1 c)).trans ?_
  refine Finset.sum_congr rfl fun k _ => ?_
  exact congrArg src (funext fun ax => Fin.ext (by match ax with | ⟨0, _⟩ => rfl | ⟨1, _⟩ => rfl))

variable {M : Type*} [AddCommMonoid M]

/-- A matrix read at natural-number coordinates: its entry inside the extents, zero outside. -/
noncomputable def natRead {a b : ℕ} (X : (⟨2, ![a, b]⟩ : Shape).Idx → M) (r c : ℕ) : M :=
  if h : r < a ∧ c < b then X (ix2 ⟨r, h.1⟩ ⟨c, h.2⟩) else 0

theorem natRead_of_lt {a b : ℕ} (X : (⟨2, ![a, b]⟩ : Shape).Idx → M) {r c : ℕ} (hr : r < a) (hc : c < b) :
    natRead X r c = X (ix2 ⟨r, hr⟩ ⟨c, hc⟩) := dif_pos ⟨hr, hc⟩

/-- A column's sum over all rows is the sum over the range of row numbers of the natural-number reading. -/
theorem sum_col_eq_range {a b : ℕ} (X : (⟨2, ![a, b]⟩ : Shape).Idx → M) (c : Fin b) :
    ∑ n : Fin a, X (ix2 n c) = ∑ n ∈ Finset.range a, natRead X n c.val := by
  rw [← Fin.sum_univ_eq_sum_range (fun n => natRead X n c.val) a]
  exact Finset.sum_congr rfl fun n _ => (natRead_of_lt X n.isLt c.isLt).symm

/-- The sum over the first `R * (i + 1)` numbers is the sum over the first `R * i` plus the sum over the next `R`. -/
theorem sum_range_tile (R i : ℕ) (f : ℕ → M) :
    ∑ n ∈ Finset.range (R * (i + 1)), f n
      = ∑ n ∈ Finset.range (R * i), f n + ∑ r ∈ Finset.range R, f (R * i + r) := by
  rw [show R * (i + 1) = R * i + R from Nat.mul_succ R i, Finset.sum_range_add]

end Cert.LibColSum
-- ==== Proof.Region0.lean ====
/-
  The first kernel call, read as a value: the column sums of the samples.

  The grid is 2 × 16: point t = 16 j + i adds, into the one-row block of columns 512 j … 512 j + 511, the sums down
  the columns of the 4096-row tile i of the samples; the block is set to zero at i = 0 and written back at i = 15. So after
  point t the block holds, at column q, the sum of the samples' column 512 j + q over the first 4096 (i + 1) rows
  (by induction on the point, adding one tile at a time), and what is written back is the sum over all 65536 rows.
  The two write-backs cover the 1 × 1024 result.
-/
import proofs.«103529_j85401129713725_2_alg».proof.Proof.Gen.KernelIdeal.Frame
import proofs.«103529_j85401129713725_2_alg».proof.Proof.Spec
import proofs.«103529_j85401129713725_2_alg».proof.Proof.LibColSum
import Idealize.ShloMosaic.Lib.Pipeline.Value
import Idealize.ShloMosaic.Lib.ValueLayout
import Idealize.ShloMosaic.Lib.Tactic

set_option maxRecDepth 16384

noncomputable section

namespace Cert.KernelIdeal.Region0

open Cert.KernelIdeal Cert.KernelIdeal.Gen Cert.Remap Cert.LibColSum
open Idealize.ShloMosaic Idealize.ShloMosaic.TcCoe Idealize.ShloMosaic.ValueIdx Idealize.ShloMosaic.Tactic Idealize.SL.Sem
open Idealize.ShloMosaic.Pipeline (Dat)

theorem hz : (![0, 0] : Fin 2 → Nat) = fun _ => 0 := funext fun a => by fin_cases a <;> rfl

section AnyFloats

variable {F : FTy → Type} [FloatOps F]

/-- At a point that does not reset, the body leaves in the output's buffer, which held `xo`, the sum's payload of `xo`
    and the samples' tile `x`: its one store covers the buffer and its loads read the whole buffers. -/
theorem out_B (c : Dev nD) (i : grid0.Coords) (a1 : Memref sig .tc .vmem S4096x512 .f32) (h1 : a1.IsWhole)
    (a2 : Memref sig .tc .vmem S1x512 .f32) (h2 : a2.IsWhole) (hc : ¬cond0_0 i) (x : Vec F S4096x512 .f32)
    (xo : Vec F S1x512 .f32) :
    out0_B_1 c i a1 h1 a2 h2 hc x xo = k0_pay2 xo x := by
  unfold out0_B_1
  rw [View.read_writes_eq_canon _ _ _ (cover0_B_1 c i a1 h1 a2 h2 hc x xo)]
  unfold kernelRun0_B
  dsimp only
  rw [View.canon_unit_zero hz]
  simp only [View.readAt_eq_ld, h1.read_unread, h2.read_unread, View.ld_unit_zero (S := S4096x512) hz,
    View.ld_unit_zero (S := S1x512) hz]

/-- At a point that resets, the body stores the zero row, reads it back, and leaves the same payload of the zero row and
    the samples' tile. -/
theorem out_A (c : Dev nD) (i : grid0.Coords) (a1 : Memref sig .tc .vmem S4096x512 .f32) (h1 : a1.IsWhole)
    (a2 : Memref sig .tc .vmem S1x512 .f32) (h2 : a2.IsWhole) (hc : cond0_0 i) (x : Vec F S4096x512 .f32) :
    out0_A_1 c i a1 h1 a2 h2 hc x = k0_pay2 (k0_pay1 (F := F)) x := by
  unfold out0_A_1
  rw [View.read_writes_eq_canon _ _ _ (cover0_A_1 c i a1 h1 a2 h2 hc x)]
  unfold kernelRun0_A
  dsimp only
  sl_unfold_words
  rw [View.canon_cons_unit_zero (S := S1x512) hz, View.readCov_unit_zero (S := S1x512) _ hz]
  simp only [View.readAt_eq_ld, h1.read_unread, View.ld_unit_zero (S := S4096x512) hz]

end AnyFloats

/-- The accumulating payload at column `q`: what the row held there plus the sum down column `q` of the tile. -/
theorem pay2_apply (xo : FVec Ideal S1x512 .f32) (x : FVec Ideal S4096x512 .f32) (q : Fin 512) :
    k0_pay2 (F := Ideal) xo x (ix2 (0 : Fin 1) q) = xo (ix2 (0 : Fin 1) q) + ∑ r : Fin 4096, x (ix2 r q) := by
  unfold k0_pay2
  show _ + _ = _
  refine congrArg₂ (· + ·) (congrFun (shapeCast_self xo _) _) ?_
  exact (shapeCast_a_1a_apply _ _ 0 q).trans (sum_cols_apply x _ _ _ q)

/-- The reset payload is the zero row. -/
theorem pay1_apply (q : Fin 512) : k0_pay1 (F := Ideal) (ix2 (0 : Fin 1) q) = 0 := by
  unfold k0_pay1
  show Ideal.ofBits .f32 0x00000000#32 = 0
  exact Ideal.ofBits_zero_f32

/-- The column sums of the samples as a one-row array. -/
def colRow (X : (⟨2, ![65536, 1024]⟩ : Shape).Idx → EReal) : (⟨2, ![1, 1024]⟩ : Shape).Idx → EReal :=
  fun y => colSumX X (y 1)

variable (V : (c : Dev nD) → (b : Ref sig .tc) → Buf (Elt Ideal) ((c : Thread nD τ).loc b))

/-- The samples as the region finds them, entries extended reals. -/
abbrev samples (c : Dev nD) : (⟨2, ![65536, 1024]⟩ : Shape).Idx → EReal := V c main_arg0

/-- The windows' index maps over the grid: the samples' window is at row tile `t % 16`, column half `t / 16`; the
    result's window at row block 0, column half `t / 16`. -/
theorem idx_facts : ∀ t : Fin cfg0.N, win0_0.index t (0 : Fin 2) = t.val % 16 ∧ win0_0.index t (1 : Fin 2) = t.val / 16
    ∧ win0_1.index t (0 : Fin 2) = 0 ∧ win0_1.index t (1 : Fin 2) = t.val / 16 :=
  (by decide +kernel : ∀ t : Fin grid0.N, win0_0.index t (0 : Fin 2) = t.val % 16 ∧ win0_0.index t (1 : Fin 2) = t.val / 16
    ∧ win0_1.index t (0 : Fin 2) = 0 ∧ win0_1.index t (1 : Fin 2) = t.val / 16)

/-- The samples' tile at point `t`, at `(r, q)`: the samples at row `4096 (t % 16) + r`, column `512 (t / 16) + q`. -/
theorem iblk_apply (c : Dev nD) (t : Fin cfg0.N) (r : Fin 4096) (q : Fin 512) :
    (iblk0 V c 0 t : FVec Ideal S4096x512 .f32) (ix2 r q)
      = natRead (samples V c) (4096 * (t.val % 16) + r.val) (512 * (t.val / 16) + q.val) := by
  have hN : t.val < 32 := lt_of_lt_of_eq t.isLt (show cfg0.N = 32 from N_0)
  obtain ⟨e0, e1, -, -⟩ := idx_facts t
  rw [natRead_of_lt _ (by omega) (by omega)]
  show V c main_arg0 (((cfg0.win 0).blk t).view.emb (ix2 r q)) = V c main_arg0 _
  refine congrArg (V c main_arg0) (funext fun a => Fin.ext ?_)
  match a with
  | ⟨0, _⟩ => show win0_0.index t (0 : Fin 2) * 4096 + 1 * r.val = 4096 * (t.val % 16) + r.val; rw [e0]; omega
  | ⟨1, _⟩ => show win0_0.index t (1 : Fin 2) * 512 + 1 * q.val = 512 * (t.val / 16) + q.val; rw [e1]; omega

/-- The sum down column `q` of a tile that reads as rows `4096 i …` and columns `512 j …` of `X` is the sum over its
    4096 row numbers of `X`'s column `512 j + q`. -/
theorem tile_sum (x : FVec Ideal S4096x512 .f32) (X : (⟨2, ![65536, 1024]⟩ : Shape).Idx → EReal) (i j : ℕ)
    (hx : ∀ (r : Fin 4096) (q : Fin 512), x (ix2 r q) = natRead X (4096 * i + r.val) (512 * j + q.val)) (q : Fin 512) :
    ∑ r : Fin 4096, x (ix2 r q) = ∑ r ∈ Finset.range 4096, natRead X (4096 * i + r) (512 * j + q.val) := by
  rw [← Fin.sum_univ_eq_sum_range (fun r => natRead X (4096 * i + r) (512 * j + q.val)) 4096]
  exact Finset.sum_congr rfl fun r _ => hx r q

/-- THE RUNNING SUM. After point `n` the output's buffer holds, at column `q`, the sum of the samples' column
    `512 (n / 16) + q` over the first `4096 (n % 16 + 1)` rows. -/
theorem outsAt_apply (c : Dev nD) : ∀ (n : ℕ) (h : n < cfg0.N) (q : Fin 512),
    outsAt0 V c n h (ix2 (0 : Fin 1) q)
      = ∑ a ∈ Finset.range (4096 * (n % 16 + 1)), natRead (samples V c) a (512 * (n / 16) + q.val)
  | 0, h, q => by
    rw [outsAt0_A V c ⟨0, h⟩ rfl, out_A, pay2_apply, pay1_apply, zero_add]
    refine (tile_sum _ (samples V c) _ _ (fun r q => iblk_apply V c ⟨0, h⟩ r q) q).trans ?_
    rw [sum_range_tile 4096 0]
    simp only [Nat.mul_zero, Finset.range_zero, Finset.sum_empty, zero_add, Nat.zero_mod, Nat.zero_div]
  | n + 1, h, q => by
    by_cases h0 : (n + 1) % 16 = 0
    · rw [outsAt0_A V c ⟨n + 1, h⟩ h0, out_A, pay2_apply, pay1_apply, zero_add]
      refine (tile_sum _ (samples V c) _ _ (fun r q => iblk_apply V c ⟨n + 1, h⟩ r q) q).trans ?_
      dsimp only
      rw [h0, sum_range_tile 4096 0]
      simp only [Nat.mul_zero, Finset.range_zero, Finset.sum_empty, zero_add]
    · have hm : (n + 1) % 16 = n % 16 + 1 := by omega
      have hd : (n + 1) / 16 = n / 16 := by omega
      rw [outsAt0_B V c ⟨n + 1, h⟩ h0, out_B, pay2_apply]
      show outsAt0 V c n _ (ix2 (0 : Fin 1) q) + _ = _
      refine (congrArg₂ (· + ·) (outsAt_apply c n _ q)
        (tile_sum _ (samples V c) _ _ (fun r q => iblk_apply V c ⟨n + 1, h⟩ r q) q)).trans ?_
      dsimp only
      rw [hm, hd, sum_range_tile 4096 (n % 16 + 1)]

/-- An index of the one-row result is in point `t`'s block iff each coordinate is in the block's range on its axis. -/
theorem mem_blk (t : Fin cfg0.N) (i : S1x1024.Idx) :
    i ∈ ((cfg0.win 1).blk t).view.set
      ↔ ∀ a : Fin 2, win0_1.index t a * S1x512.size a ≤ (i a).val
          ∧ (i a).val < win0_1.index t a * S1x512.size a + S1x512.size a := by
  show i ∈ ((View.whole main_v0).slice (win0_1.rect t)).set ↔ _
  rw [View.set_slice_whole, Rect.mem_set_unit]
  exact Iff.rfl

/-- The result window's block is never clipped: what is written back is the staging buffer as it stands. -/
theorem cut_eq (t : Fin cfg0.N) (v : Vec Ideal S1x512 .f32) : (cfg0.win 1).cut (grid0.coords t) v = v := rfl

/-- A one-row array read through the result window's block at point `t`: the array at the block's place in it. -/
theorem read_blk (t : Fin cfg0.N) (A : (⟨2, ![1, 1024]⟩ : Shape).Idx → EReal) (y : S1x512.Idx) :
    ((cfg0.win 1).blk t).view.read (Elt Ideal) A y = A (((cfg0.win 1).blk t).view.emb y) := rfl

/-- WHAT A WRITING POINT WRITES BACK (the last point of each column half, `t % 16 = 15`): the running sum has then
    taken in all 16 tiles, so the block is the samples' column sums read through the block. -/
theorem flushed_eq (c : Dev nD) (t : Fin cfg0.N) (hf : (cfg0.win 1).flush t = true) :
    (dat0 V c).flushed 1 t = ((cfg0.win 1).blk t).view.read (Elt Ideal) (colRow (samples V c)) := by
  have h15 : t.val % 16 = 15 := (flush0_1 t).mp hf
  have hN : t.val < 32 := lt_of_lt_of_eq t.isLt (show cfg0.N = 32 from N_0)
  obtain ⟨-, -, e2, e3⟩ := idx_facts t
  show (cfg0.win 1).cut (grid0.coords t) ((dat0 V c).after 1 t) = _
  rw [after0_1, cut_eq]
  refine funext fun (y : S1x512.Idx) => ?_
  refine Eq.trans ?_ (read_blk t (colRow (samples V c)) y).symm
  obtain ⟨u, q, rfl⟩ : ∃ (u : Fin 1) (q : Fin 512), y = ix2 u q := ⟨y 0, y 1, eq_ix2 y⟩
  obtain rfl : u = 0 := Subsingleton.elim _ _
  have hq : 512 * (t.val / 16) + q.val < 1024 := by omega
  have hemb : ((cfg0.win 1).blk t).view.emb (ix2 (0 : Fin 1) q)
      = ix2 (0 : Fin 1) (⟨512 * (t.val / 16) + q.val, hq⟩ : Fin 1024) :=
    funext fun a => Fin.ext (by
      match a with
      | ⟨0, _⟩ => show win0_1.index t (0 : Fin 2) * 1 + 1 * 0 = 0; rw [e2]
      | ⟨1, _⟩ => show win0_1.index t (1 : Fin 2) * 512 + 1 * q.val = 512 * (t.val / 16) + q.val; rw [e3]; omega)
  rw [outsAt_apply V c t.val t.isLt q, h15]
  refine Eq.trans ?_ (congrArg (colRow (samples V c)) hemb.symm)
  show _ = colSumX (samples V c) ⟨512 * (t.val / 16) + q.val, hq⟩
  unfold colSumX
  rw [sum_col_eq_range]

/-- THE ONE-ROW RESULT after the call: the samples' column sums. Column `k` is covered by the write-back of the last
    point of column half `k / 512`. -/
theorem final (c : Dev nD) : (dat0 V c).arrAt 1 cfg0.N = colRow (samples V c) :=
  (dat0 V c).arrAt_eq_of_cover 1 (colRow (samples V c)) (fun t hf => flushed_eq V c t hf) fun i => by
    have h1 : (i 1).val < 1024 := (i 1).isLt
    have h0 : (i 0).val < 1 := (i 0).isLt
    have hN : cfg0.N = 32 := N_0
    obtain ⟨t, ht⟩ : ∃ t : Fin cfg0.N, t.val = 16 * ((i 1).val / 512) + 15 :=
      ⟨⟨16 * ((i 1).val / 512) + 15, by rw [hN]; omega⟩, rfl⟩
    refine ⟨t, (flush0_1 t).mpr (by rw [ht]; omega), ?_⟩
    rw [mem_blk]
    obtain ⟨-, -, e2, e3⟩ := idx_facts t
    have e3' : win0_1.index t (1 : Fin 2) = (i 1).val / 512 := by rw [e3, ht]; omega
    intro a
    match a with
    | ⟨0, _⟩ =>
      show win0_1.index t (0 : Fin 2) * 1 ≤ (i 0).val ∧ (i 0).val < win0_1.index t (0 : Fin 2) * 1 + 1
      rw [e2]; omega
    | ⟨1, _⟩ =>
      show win0_1.index t (1 : Fin 2) * 512 ≤ (i 1).val ∧ (i 1).val < win0_1.index t (1 : Fin 2) * 512 + 512
      rw [e3']; omega

end Cert.KernelIdeal.Region0

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.Region1.lean ====
/-
  The second kernel call, read as a value: from the weights `W` and a one-row array `C` (whatever the region finds in
  its second operand), its result array ends holding, at (i, j),
      exp (s_i * t_j) / sum over k of exp (s_i * C_k),
  s_i and t_j the row and column sums of `W`. The call has one grid point and every window's block is its whole
  array, so the one write-back covers the result array.
-/
import proofs.«103529_j85401129713725_2_alg».proof.Proof.Gen.KernelIdeal.Frame
import proofs.«103529_j85401129713725_2_alg».proof.Proof.Spec
import proofs.«103529_j85401129713725_2_alg».proof.Proof.LibLayout
import proofs.«103529_j85401129713725_2_alg».proof.Proof.LibColSum
import Idealize.ShloMosaic.Lib.Pipeline.Value
import Idealize.ShloMosaic.Lib.ValueLayout

set_option maxRecDepth 16384

noncomputable section

namespace Cert.KernelIdeal.Region1

open Cert.KernelIdeal Cert.KernelIdeal.Gen Cert.Remap
open Idealize.ShloMosaic Idealize.ShloMosaic.TcCoe Idealize.ShloMosaic.ValueIdx Idealize.SL.Sem
open Idealize.ShloMosaic.Pipeline (Dat)

/-- The body's arithmetic at one entry: the quotient of `exp (s_p * t_q)` by the row's sum of `exp (s_p * C_k)`, for a
    weights block `w` that reads as `W` and a one-row block `cr` that reads as `C`. -/
theorem pay_apply (w : FVec Ideal S128x1024 .f32) (cr : FVec Ideal S1x1024 .f32)
    (W : (⟨2, ![128, 1024]⟩ : Shape).Idx → EReal) (C : (⟨2, ![1, 1024]⟩ : Shape).Idx → EReal)
    (hw : ∀ (p : Fin 128) (k : Fin 1024), w (ix2 p k) = W (ix2 p k))
    (hc : ∀ k : Fin 1024, cr (ix2 (0 : Fin 1) k) = C (ix2 (0 : Fin 1) k)) (p : Fin 128) (q : Fin 1024) :
    k1_pay1 (F := Ideal) w cr (ix2 p q)
      = remapOf (rowSumW W) (colSumW W) (fun k => C (ix2 (0 : Fin 1) k)) (ix2 p q) := by
  -- the row sums, kept as a column and repeated along the rows
  have hs : ∀ (p : Fin 128) (k : Fin 1024),
      broadcastTo S128x1024 (shapeCast S128x1 (multiReduction .add [1] S128 w 0x00000000#32 reduces_S128x1024_S128 (.inl rfl) rfl)
        shapeCasts_S128_S128x1) broadcasts_S128x1_S128x1024 (ix2 p k) = rowSumW W p := fun p k =>
    (Cert.LibLayout.broadcastTo_a1_ab_apply _ _ p k).trans
      ((Cert.LibLayout.shapeCast_a_a1_apply _ _ p 0).trans
        ((Cert.LibLayout.sum_rows_apply w _ _ _ p).trans (Finset.sum_congr rfl fun k _ => hw p k)))
  -- the column sums, kept as a row and repeated down the rows
  have ht : ∀ (p : Fin 128) (k : Fin 1024),
      broadcastTo S128x1024 (shapeCast S1x1024 (multiReduction .add [0] S1024 w 0x00000000#32 reduces_S128x1024_S1024 (.inl rfl) rfl)
        shapeCasts_S1024_S1x1024) broadcasts_S1x1024_S128x1024 (ix2 p k) = colSumW W k := fun p k =>
    (broadcastTo_1b_ab_apply _ _ p k).trans
      ((shapeCast_a_1a_apply _ _ 0 k).trans
        ((Cert.LibColSum.sum_cols_apply w _ _ _ k).trans (Finset.sum_congr rfl fun i _ => hw i k)))
  -- the one-row operand repeated down the rows
  have hcr : ∀ (p : Fin 128) (k : Fin 1024),
      broadcastTo S128x1024 (shapeCast S1x1024 cr shapeCasts_S1x1024_S1x1024) broadcasts_S1x1024_S128x1024 (ix2 p k)
        = C (ix2 (0 : Fin 1) k) := fun p k =>
    (broadcastTo_1b_ab_apply _ _ p k).trans ((congrFun (shapeCast_self cr _) _).trans (hc k))
  unfold k1_pay1
  show Ideal.div (Ideal.exp (_ * _)) _ = _
  rw [remapOf_apply, hs p q, ht p q]
  refine congrArg (Ideal.div _) ?_
  refine (Cert.LibLayout.broadcastTo_a1_ab_apply _ _ p q).trans ((Cert.LibLayout.shapeCast_a_a1_apply _ _ p 0).trans ?_)
  refine (Cert.LibLayout.sum_rows_apply _ _ _ _ p).trans (Finset.sum_congr rfl fun k _ => ?_)
  show Ideal.exp (_ * _) = _
  rw [hs p k, hcr p k]

/-- The second call's result array as a function of the two arrays it reads: the weights and a one-row array. -/
def result (W : (⟨2, ![128, 1024]⟩ : Shape).Idx → EReal) (C : (⟨2, ![1, 1024]⟩ : Shape).Idx → EReal) :
    (⟨2, ![128, 1024]⟩ : Shape).Idx → EReal :=
  remapOf (rowSumW W) (colSumW W) (fun k => C (ix2 (0 : Fin 1) k))

theorem hz : (![0, 0] : Fin 2 → Nat) = fun _ => 0 := funext fun a => by fin_cases a <;> rfl

variable (V : (c : Dev nD) → (b : Ref sig .tc) → Buf (Elt Ideal) ((c : Thread nD τ).loc b))

/-- The windows' index maps over the one-point grid: every window's block is block (0, 0), the whole array. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0)

/-- WHAT THE POINT WRITES BACK is the result function of the two arrays as the region finds them, read through the
    result window's block. -/
theorem flushed_eq (c : Dev nD) (t : Fin cfg1.N) :
    (dat1 V c).flushed 2 t
      = ((cfg1.win 2).blk t).view.read (Elt Ideal) (result (V c main_arg1) (V c main_v0)) := by
  show (cfg1.win 2).cut (grid1.coords t) ((dat1 V c).after 2 t) = _
  rw [after1_2]
  unfold out1_2
  rw [View.canon_unit_zero hz]
  simp only [View.ld_unit_zero (S := S128x1024) hz, View.ld_unit_zero (S := S1x1024) hz]
  obtain ⟨e0, e1, e2, e3, e4, e5⟩ := idx_facts t
  refine funext fun (y : S128x1024.Idx) => ?_
  obtain ⟨p, q, rfl⟩ : ∃ (p : Fin 128) (q : Fin 1024), y = ix2 p q := ⟨y 0, y 1, eq_ix2 y⟩
  have hemb : ((cfg1.win 2).blk t).view.emb (ix2 p q) = ix2 p q := funext fun a => Fin.ext (by
    match a with
    | ⟨0, _⟩ => show win1_2.index t (0 : Fin 2) * 128 + 1 * p.val = p.val; rw [e4]; omega
    | ⟨1, _⟩ => show win1_2.index t (1 : Fin 2) * 1024 + 1 * q.val = q.val; rw [e5]; omega)
  show k1_pay1 (F := Ideal) (iblk1 V c 0 t) (iblk1 V c 1 t) (ix2 p q)
    = result (V c main_arg1) (V c main_v0) (((cfg1.win 2).blk t).view.emb (ix2 p q))
  refine (pay_apply (iblk1 V c 0 t) (iblk1 V c 1 t) (V c main_arg1) (V c main_v0) (fun p k => ?_) (fun k => ?_) p q).trans
    (congrArg (result (V c main_arg1) (V c main_v0)) hemb.symm)
  · show V c main_arg1 (((cfg1.win 0).blk t).view.emb (ix2 p k)) = V c main_arg1 (ix2 p k)
    refine congrArg (V c main_arg1) (funext fun a => Fin.ext ?_)
    match a with
    | ⟨0, _⟩ => show win1_0.index t (0 : Fin 2) * 128 + 1 * p.val = p.val; rw [e0]; omega
    | ⟨1, _⟩ => show win1_0.index t (1 : Fin 2) * 1024 + 1 * k.val = k.val; rw [e1]; omega
  · show V c main_v0 (((cfg1.win 1).blk t).view.emb (ix2 (0 : Fin 1) k)) = V c main_v0 (ix2 (0 : Fin 1) k)
    refine congrArg (V c main_v0) (funext fun a => Fin.ext ?_)
    match a with
    | ⟨0, _⟩ => show win1_1.index t (0 : Fin 2) * 1 + 1 * 0 = 0; rw [e2]
    | ⟨1, _⟩ => show win1_1.index t (1 : Fin 2) * 1024 + 1 * k.val = k.val; rw [e3]; omega

/-- An index of the result array is in the point's block iff each coordinate is in the block's range on its axis. -/
theorem mem_blk (t : Fin cfg1.N) (i : S128x1024.Idx) :
    i ∈ ((cfg1.win 2).blk t).view.set
      ↔ ∀ a : Fin 2, win1_2.index t a * S128x1024.size a ≤ (i a).val
          ∧ (i a).val < win1_2.index t a * S128x1024.size a + S128x1024.size a := by
  show i ∈ ((View.whole main_v1).slice (win1_2.rect t)).set ↔ _
  rw [View.set_slice_whole, Rect.mem_set_unit]
  exact Iff.rfl

/-- THE RESULT ARRAY after the call: the result function of the two arrays as the region finds them (the one write-back
    covers the array). -/
theorem final (c : Dev nD) : (dat1 V c).arrAt 2 cfg1.N = result (V c main_arg1) (V c main_v0) :=
  (dat1 V c).arrAt_eq_of_cover 2 (result (V c main_arg1) (V c main_v0)) (fun t _ => flushed_eq V c t) fun i => by
    refine ⟨t1_0, flush1_2 t1_0, ?_⟩
    rw [mem_blk]
    obtain ⟨-, -, -, -, e4, e5⟩ := idx_facts t1_0
    intro a
    match a with
    | ⟨0, _⟩ =>
      show win1_2.index t1_0 (0 : Fin 2) * 128 ≤ (i 0).val ∧ (i 0).val < win1_2.index t1_0 (0 : Fin 2) * 128 + 128
      have hi : (i 0).val < 128 := (i 0).isLt
      rw [e4]; omega
    | ⟨1, _⟩ =>
      show win1_2.index t1_0 (1 : Fin 2) * 1024 ≤ (i 1).val ∧ (i 1).val < win1_2.index t1_0 (1 : Fin 2) * 1024 + 1024
      have hi : (i 1).val < 1024 := (i 1).isLt
      rw [e5]; omega

end Cert.KernelIdeal.Region1

end
-- ==== Proof.KernelValue.lean ====
/-
  The idealized kernel's result, as one function of its two arguments.

  The run of @main ends with the result buffer at what the second call's write-back leaves. That is the second call's
  result function of the weights (an argument, untouched by the first call) and of the one-row array the first call
  wrote, which is the samples' column sums: together, the specification of the two arguments.
-/
import proofs.«103529_j85401129713725_2_alg».proof.Proof.KernelRun
import proofs.«103529_j85401129713725_2_alg».proof.Proof.Region0
import proofs.«103529_j85401129713725_2_alg».proof.Proof.Region1

set_option maxRecDepth 16384

noncomputable section

namespace Cert.KernelIdeal.Whole

open Cert.KernelIdeal Cert.KernelIdeal.Gen Cert.Remap
open Idealize.ShloMosaic Idealize.ShloMosaic.TcCoe Idealize.ShloMosaic.ValueIdx Idealize.SL.Sem

variable (m : (ℓ : Loc nD τ sig) → Buf (Elt Ideal) ℓ) (ρ : Dev nD → PrngReg)

/-- The one-row array the second call finds is the samples' column sums: the first call's write-backs. -/
theorem colRow_found (c : Dev nD) :
    V1 m ρ c main_v0 = Region0.colRow (m ((c.tc : Thread nD τ).loc main_arg0)) :=
  (W1_arr m ρ c 1).trans (Region0.final (V0 m ρ) c)

/-- The weights the second call finds are the launch's: the first call does not touch them. -/
theorem weights_found (c : Dev nD) : V1 m ρ c main_arg1 = m ((c.tc : Thread nD τ).loc main_arg1) :=
  W1_of_ne m ρ c main_arg1 (by decide)

/-- The result buffer after the run is the specification of the two arguments. -/
theorem result_eq (c : Dev nD) :
    V2 m ρ c main_v1 = G (m ((c.tc : Thread nD τ).loc main_arg0)) (m ((c.tc : Thread nD τ).loc main_arg1)) := by
  refine ((W2_arr m ρ c 2).trans (Region1.final (V1 m ρ) c)).trans ?_
  rw [weights_found m ρ c, colRow_found m ρ c]
  rfl

/-- Every weakly fair execution of the idealized kernel's @main terminates, nothing faulting, with the result buffer at
    the specification of the launch's arguments and both arguments unchanged. -/
theorem run : θ_run defs (onTc (τ := τ) (main (F := Ideal))) ⟨m, fun _ => 0, ρ⟩ (fun r => ∀ c : Dev nD,
      r.2.mem ((c.tc : Thread nD τ).loc main_v1)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_named m ρ)

end Cert.KernelIdeal.Whole

end
-- ==== Proof.RefValue.lean ====
/-
  The reference's result is the specification: its three sums are the row sums and column sums of the weights and the
  column sums of the samples (each host sum starts from the zero word, which is 0), its two broadcasts place s_i down
  a row and t_j / c_k along a column, and its exponential and quotient are the ideal ones.
-/
import proofs.«103529_j85401129713725_2_alg».proof.Proof.Gen.ReferenceIdeal.Read
import proofs.«103529_j85401129713725_2_alg».proof.Proof.Spec

noncomputable section

namespace Cert.ReferenceIdeal.RefValue

open Cert.ReferenceIdeal Cert.ReferenceIdeal.Read Idealize.ShloMosaic Idealize.ShloMosaic.ValueIdx Cert.Remap

/-- The sum along a row of the weights, as the host computes it. -/
theorem v0_eq (w : (⟨S128x1024, .f32⟩ : BufTy).Contents (Elt Ideal)) (i : Fin 128) :
    val_main_v0 (F := Ideal) w (ix1 i) = rowSumW w i := by
  rw [val_main_v0_apply, val_main_cst_apply, Ideal.ofBits_def, Ideal.ofBits_zero_f32, zero_add]
  unfold rowSumW
  refine Finset.sum_congr rfl fun k _ => congrArg w (funext fun a => ?_)
  match a with
  | ⟨0, _⟩ => rfl
  | ⟨1, _⟩ => rfl

/-- The sum down a column of the weights. -/
theorem v1_eq (w : (⟨S128x1024, .f32⟩ : BufTy).Contents (Elt Ideal)) (j : Fin 1024) :
    val_main_v1 (F := Ideal) w (ix1 j) = colSumW w j := by
  rw [val_main_v1_apply, val_main_cst_0_apply, Ideal.ofBits_def, Ideal.ofBits_zero_f32, zero_add]
  unfold colSumW
  refine Finset.sum_congr rfl fun k _ => congrArg w (funext fun a => ?_)
  match a with
  | ⟨0, _⟩ => rfl
  | ⟨1, _⟩ => rfl

/-- The sum down a column of the samples. -/
theorem v2_eq (x : (⟨S65536x1024, .f32⟩ : BufTy).Contents (Elt Ideal)) (k : Fin 1024) :
    val_main_v2 (F := Ideal) x (ix1 k) = colSumX x k := by
  rw [val_main_v2_apply, val_main_cst_1_apply, Ideal.ofBits_def, Ideal.ofBits_zero_f32, zero_add]
  unfold colSumX
  refine Finset.sum_congr rfl fun n _ => congrArg x (funext fun a => ?_)
  match a with
  | ⟨0, _⟩ => rfl
  | ⟨1, _⟩ => rfl

/-- The row sums placed down the rows of a 128 × 1024 array (first use). -/
theorem v5_eq (w : (⟨S128x1024, .f32⟩ : BufTy).Contents (Elt Ideal)) (p : Fin 128) (q : Fin 1024) :
    val_main_v5 (F := Ideal) w (ix2 p q) = rowSumW w p := by
  rw [val_main_v5_apply, val_main_v3_apply,
    show idx_main_v3 (idx_main_v5 (ix2 p q)) = ix1 p from funext fun a => by match a with | ⟨0, _⟩ => rfl]
  exact v0_eq w p

/-- The samples' column sums placed along the columns of a 128 × 1024 array. -/
theorem v6_eq (x : (⟨S65536x1024, .f32⟩ : BufTy).Contents (Elt Ideal)) (p : Fin 128) (q : Fin 1024) :
    val_main_v6 (F := Ideal) x (ix2 p q) = colSumX x q := by
  rw [val_main_v6_apply, val_main_v4_apply,
    show idx_main_v4 (idx_main_v6 (ix2 p q)) = ix1 q from funext fun a => by match a with | ⟨0, _⟩ => rfl]
  exact v2_eq x q

/-- The row sums placed down the rows (second use). -/
theorem v12_eq (w : (⟨S128x1024, .f32⟩ : BufTy).Contents (Elt Ideal)) (p : Fin 128) (q : Fin 1024) :
    val_main_v12 (F := Ideal) w (ix2 p q) = rowSumW w p := by
  rw [val_main_v12_apply, val_main_v10_apply,
    show idx_main_v10 (idx_main_v12 (ix2 p q)) = ix1 p from funext fun a => by match a with | ⟨0, _⟩ => rfl]
  exact v0_eq w p

/-- The weights' column sums placed along the columns. -/
theorem v13_eq (w : (⟨S128x1024, .f32⟩ : BufTy).Contents (Elt Ideal)) (p : Fin 128) (q : Fin 1024) :
    val_main_v13 (F := Ideal) w (ix2 p q) = colSumW w q := by
  rw [val_main_v13_apply, val_main_v11_apply,
    show idx_main_v11 (idx_main_v13 (ix2 p q)) = ix1 q from funext fun a => by match a with | ⟨0, _⟩ => rfl]
  exact v1_eq w q

/-- The denominators: for row `p` the sum over `k` of `exp (s_p * c_k)`. -/
theorem v9_eq (x : (⟨S65536x1024, .f32⟩ : BufTy).Contents (Elt Ideal)) (w : (⟨S128x1024, .f32⟩ : BufTy).Contents (Elt Ideal))
    (p : Fin 128) :
    val_main_v9 (F := Ideal) x w (ix1 p) = ∑ k : Fin 1024, Ideal.exp (rowSumW w p * colSumX x k) := by
  rw [val_main_v9_apply, val_main_cst_2_apply, Ideal.ofBits_def, Ideal.ofBits_zero_f32, zero_add]
  refine Finset.sum_congr rfl fun k _ => ?_
  rw [show idx_main_v9 (ix1 p) k = ix2 p k from funext fun a => by match a with | ⟨0, _⟩ => rfl | ⟨1, _⟩ => rfl,
    val_main_v8_apply, val_main_v7_apply, v5_eq, v6_eq, Ideal.hostUnary_exp_def, Ideal.mulf_def]

/-- The denominators placed down the rows. -/
theorem v17_eq (x : (⟨S65536x1024, .f32⟩ : BufTy).Contents (Elt Ideal)) (w : (⟨S128x1024, .f32⟩ : BufTy).Contents (Elt Ideal))
    (p : Fin 128) (q : Fin 1024) :
    val_main_v17 (F := Ideal) x w (ix2 p q) = ∑ k : Fin 1024, Ideal.exp (rowSumW w p * colSumX x k) := by
  rw [val_main_v17_apply, val_main_v16_apply,
    show idx_main_v16 (idx_main_v17 (ix2 p q)) = ix1 p from funext fun a => by match a with | ⟨0, _⟩ => rfl]
  exact v9_eq x w p

/-- The reference's result array is the specification of its two arguments. -/
theorem ref_eq (x : (⟨S65536x1024, .f32⟩ : BufTy).Contents (Elt Ideal)) (w : (⟨S128x1024, .f32⟩ : BufTy).Contents (Elt Ideal)) :
    val_main_v18 (F := Ideal) x w = G x w := by
  funext idx
  obtain ⟨p, q, rfl⟩ : ∃ (p : Fin 128) (q : Fin 1024), idx = ix2 p q := ⟨idx 0, idx 1, eq_ix2 idx⟩
  rw [val_main_v18_apply, val_main_v15_apply, val_main_v14_apply, v12_eq, v13_eq, v17_eq,
    Ideal.hostDivf_def, Ideal.hostUnary_exp_def, Ideal.mulf_def]
  rfl

end Cert.ReferenceIdeal.RefValue

end
-- ==== Proof.lean ====
/-
  A two-call kernel against its reference, over the extended reals.

  Both programs compute, at entry (i, j) of a 128 × 1024 result,
      exp (s_i * t_j) / sum over k of exp (s_i * c_k),
  where s_i is the sum of row i of the weights, t_j the sum of column j of the weights and c_k the sum of column k of the
  65536 × 1024 samples. The kernel's first call forms the c_k by accumulating, for each half of the columns, the column
  sums of sixteen tiles of 4096 rows into a row it first sets to zero; its second call forms s, t and the quotient in
  one block. The reference forms each sum by one host reduction from zero. The two agree because a finite sum in the
  extended reals may be regrouped freely (addition there is commutative and associative, and 0 is neutral): no
  finiteness of the inputs is used. The ideal pass rewrote nothing, so the kernel's idealization is its own text.
-/
import proofs.«103529_j85401129713725_2_alg».proof.Defs
import proofs.«103529_j85401129713725_2_alg».proof.Proof.Gen.Kernel
import proofs.«103529_j85401129713725_2_alg».proof.Proof.Gen.Kernel.Frame
import proofs.«103529_j85401129713725_2_alg».proof.Proof.Gen.KernelIdeal
import proofs.«103529_j85401129713725_2_alg».proof.Proof.Gen.KernelIdeal.Frame
import proofs.«103529_j85401129713725_2_alg».proof.Proof.Gen.ReferenceIdeal
import proofs.«103529_j85401129713725_2_alg».proof.Proof.Gen.ReferenceIdeal.Run
import proofs.«103529_j85401129713725_2_alg».proof.Proof.Gen.ReferenceIdeal.Read
import proofs.«103529_j85401129713725_2_alg».proof.Proof.Gen.Pre_finite_inputs
import proofs.«103529_j85401129713725_2_alg».proof.Proof.KernelValue
import proofs.«103529_j85401129713725_2_alg».proof.Proof.RefValue

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result at the specification of the arguments:
    the kernel by its two calls read as values, the reference by its host operations read at an index. -/
theorem algebraic : Cert.algebraic_KernelIdeal_ReferenceIdeal := by
  intro m ρ m' ρ' _ hagree
  refine ⟨fun c => Cert.Remap.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v18_eq _ _).trans (Cert.ReferenceIdeal.RefValue.ref_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
